-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1000000 : Shape := ⟨2, ![2, 1000000]⟩
abbrev S1000000x64 : Shape := ⟨2, ![1000000, 64]⟩
abbrev S100000x128 : Shape := ⟨2, ![100000, 128]⟩
abbrev S1000000 : Shape := ⟨1, ![1000000]⟩
abbrev S100000 : Shape := ⟨1, ![100000]⟩
abbrev S192x256 : Shape := ⟨2, ![192, 256]⟩
abbrev S256 : Shape := ⟨1, ![256]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S1000000 : S_.BroadcastsInDim S1000000 (![] : Fin 0 → Fin S1000000.rank)
  reducesTo_S1000000_S_d0 : S1000000.ReducesTo [0] S_
  bcast_S_S100000 : S_.BroadcastsInDim S100000 (![] : Fin 0 → Fin S100000.rank)
  reducesTo_S100000_S_d0 : S100000.ReducesTo [0] S_
  bcast_S_S192x256 : S_.BroadcastsInDim S192x256 (![] : Fin 0 → Fin S192x256.rank)
  reducesTo_S192x256_S_d0_1 : S192x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S192x256 .f32) (main_arg6 : FVec F S256 .f32) (main_v13 : IVec S_ 1) (main_v16 : IVec S100000 1) : IVec S_ 1 :=
  let main_c_5 : IVec S_ 1 := constantI S_ 1 1#1
  let main_v17 : IVec S_ 1 := (fun x v => Host.reduce IntOp.andi x v reducesTo_S100000_S_d0 h_S_) main_v16 main_c_5
  let main_v18 : IVec S_ 1 := andi main_v13 main_v17
  let main_v19 : FVec F S192x256 .f32 := Host.absf main_arg5
  let main_cst_6 : FVec F S_ .f32 := constant S_ .f32 0x7F800000#32
  let main_v20 : FVec F S192x256 .f32 := broadcastInDim S192x256 ![] bcast_S_S192x256 main_cst_6
  let main_v21 : IVec S192x256 1 := cmpf .olt main_v19 main_v20
  let main_c_7 : IVec S_ 1 := constantI S_ 1 1#1
  let main_v22 : IVec S_ 1 := (fun x v => Host.reduce IntOp.andi x v reducesTo_S192x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : IVec S2x1000000 32) (main_arg1 : FVec F S1000000x64 .f32) (main_arg2 : FVec F S100000x128 .f32) (main_arg3 : FVec F S1000000 .f32) (main_arg4 : FVec F S100000 .f32) (main_arg5 : FVec F S192x256 .f32) (main_arg6 : FVec F S256 .f32) : IVec S_ 1 :=
  let main_v0 : FVec F S1000000x64 .f32 := Host.absf main_arg1
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S100000x128 .f32 := Host.absf main_arg2
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S1000000 .f32 := Host.absf main_arg3
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  let main_v14 : FVec F S100000 .f32 := Host.absf main_arg4
  let main_cst_4 : FVec F S_ .f32 := constant S_ .f32 0x7F800000#32
  let main_v15 : FVec F S100000 .f32 := broadcastInDim S100000 ![] bcast_S_S100000 main_cst_4
  let main_v16 : IVec S100000 1 := cmpf .olt main_v14 main_v15
  fn_part1 (F := F) main_arg5 main_arg6 main_v13 main_v16
-- ==== Kernel.lean ====
abbrev S2x1000000 : Shape := ⟨2, ![2, 1000000]⟩
abbrev S1000000x64 : Shape := ⟨2, ![1000000, 64]⟩
abbrev S100000x128 : Shape := ⟨2, ![100000, 128]⟩
abbrev S1000000 : Shape := ⟨1, ![1000000]⟩
abbrev S100000 : Shape := ⟨1, ![100000]⟩
abbrev S192x256 : Shape := ⟨2, ![192, 256]⟩
abbrev S256 : Shape := ⟨1, ![256]⟩
abbrev S1000000x1 : Shape := ⟨2, ![1000000, 1]⟩
abbrev S1x1000000 : Shape := ⟨2, ![1, 1000000]⟩
abbrev S_ : Shape := ⟨0, ![]⟩
abbrev S100000x64 : Shape := ⟨2, ![100000, 64]⟩
abbrev S128x256 : Shape := ⟨2, ![128, 256]⟩
abbrev S64x256 : Shape := ⟨2, ![64, 256]⟩
abbrev S1x256 : Shape := ⟨2, ![1, 256]⟩
abbrev S100000x1 : Shape := ⟨2, ![100000, 1]⟩
abbrev S100000x256 : Shape := ⟨2, ![100000, 256]⟩
abbrev S5000x128 : Shape := ⟨2, ![5000, 128]⟩
abbrev S5000x64 : Shape := ⟨2, ![5000, 64]⟩
abbrev S5000x1 : Shape := ⟨2, ![5000, 1]⟩
abbrev S5000x256 : Shape := ⟨2, ![5000, 256]⟩

abbrev nBuf : Space → Nat
  | .hbm => 28
  | .vmem => 13
  | .smem => 0
  | _ => 0

abbrev bufTy : (tb : Table) → Fin (tcTables nBuf tb) → BufTy
  | .hbm, ⟨0, _⟩ => ⟨S2x1000000, .i32⟩
  | .hbm, ⟨1, _⟩ => ⟨S1000000x64, .f32⟩
  | .hbm, ⟨2, _⟩ => ⟨S100000x128, .f32⟩
  | .hbm, ⟨3, _⟩ => ⟨S1000000, .f32⟩
  | .hbm, ⟨4, _⟩ => ⟨S100000, .f32⟩
  | .hbm, ⟨5, _⟩ => ⟨S192x256, .f32⟩
  | .hbm, ⟨6, _⟩ => ⟨S256, .f32⟩
  | .hbm, ⟨7, _⟩ => ⟨S1000000x1, .f32⟩
  | .hbm, ⟨8, _⟩ => ⟨S1000000x64, .f32⟩
  | .hbm, ⟨9, _⟩ => ⟨S1000000x64, .f32⟩
  | .hbm, ⟨10, _⟩ => ⟨S1x1000000, .i32⟩
  | .hbm, ⟨11, _⟩ => ⟨S1000000, .i32⟩
  | .hbm, ⟨12, _⟩ => ⟨S_, .f32⟩
  | .hbm, ⟨13, _⟩ => ⟨S100000x64, .f32⟩
  | .hbm, ⟨14, _⟩ => ⟨S1000000x1, .i32⟩
  | .hbm, ⟨15, _⟩ => ⟨S100000x64, .f32⟩
  | .hbm, ⟨16, _⟩ => ⟨S_, .f32⟩
  | .hbm, ⟨17, _⟩ => ⟨S1000000, .f32⟩
  | .hbm, ⟨18, _⟩ => ⟨S_, .f32⟩
  | .hbm, ⟨19, _⟩ => ⟨S100000, .f32⟩
  | .hbm, ⟨20, _⟩ => ⟨S1000000x1, .i32⟩
  | .hbm, ⟨21, _⟩ => ⟨S100000, .f32⟩
  | .hbm, ⟨22, _⟩ => ⟨S128x256, .f32⟩
  | .hbm, ⟨23, _⟩ => ⟨S64x256, .f32⟩
  | .hbm, ⟨24, _⟩ => ⟨S1x256, .f32⟩
  | .hbm, ⟨25, _⟩ => ⟨S100000x1, .f32⟩
  | .hbm, ⟨26, _⟩ => ⟨S100000x1, .f32⟩
  | .hbm, ⟨27, _⟩ => ⟨S100000x256, .f32⟩
  | .local _ .vmem, ⟨0, _⟩ => ⟨S5000x128, .f32⟩
  | .local _ .vmem, ⟨1, _⟩ => ⟨S5000x128, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S5000x1, .f32⟩
  | .local _ .vmem, ⟨7, _⟩ => ⟨S5000x1, .f32⟩
  | .local _ .vmem, ⟨8, _⟩ => ⟨S128x256, .f32⟩
  | .local _ .vmem, ⟨9, _⟩ => ⟨S64x256, .f32⟩
  | .local _ .vmem, ⟨10, _⟩ => ⟨S1x256, .f32⟩
  | .local _ .vmem, ⟨11, _⟩ => ⟨S5000x256, .f32⟩
  | .local _ .vmem, ⟨12, _⟩ => ⟨S5000x256, .f32⟩
  | _, _ => ⟨S2x1000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  slices_S2x1000000_S1x1000000_0_0 : S2x1000000.Slices ![0, 0] S1x1000000
  shapeCasts_S1x1000000_S1000000 : S1x1000000.ShapeCasts S1000000
  bcast_S_S100000x64 : S_.BroadcastsInDim S100000x64 (![] : Fin 0 → Fin S100000x64.rank)
  bcast_S_S1000000 : S_.BroadcastsInDim S1000000 (![] : Fin 0 → Fin S1000000.rank)
  bcast_S_S100000 : S_.BroadcastsInDim S100000 (![] : Fin 0 → Fin S100000.rank)
  slices_S192x256_S128x256_0_0 : S192x256.Slices ![0, 0] S128x256
  slices_S192x256_S64x256_128_0 : S192x256.Slices ![128, 0] S64x256
  shapeCasts_S256_S1x256 : S256.ShapeCasts S1x256
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S5000x128_S128x256_S5000x256_1_0_0_1_n_n_wf : DotDims.WF S5000x128 S128x256 S5000x256 [1] [0] [0] [1] [] []
  dot_S5000x64_S64x256_S5000x256_1_0_0_1_n_n_wf : DotDims.WF S5000x64 S64x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S100000x1.size a
  hwx0_3 : ∀ i : grid0.Coords, EltTy.bits .f32 = 32 ∨ (Rect.block (s := S100000x1) S5000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x256.size a ≤ S64x256.size a
  hwx0_5 : ∀ i : grid0.Coords, EltTy.bits .f32 = 32 ∨ (Rect.block (s := S64x256) S64x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x256.size a ≤ S100000x256.size a
  hwx0_7 : ∀ i : grid0.Coords, EltTy.bits .f32 = 32 ∨ (Rect.block (s := S100000x256) S5000x256.size (cc0_transform_7 i) (hinb0_7 i)).WholeWords (EltTy.packing .f32)

variable [Facts₀]

def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf

abbrev win0_0 : Pipeline.Window sig grid0 :=
  Pipeline.Window.ofSpec (Memref.whole main_arg2) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S64x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S5000x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2x1000000 : Shape := ⟨2, ![2, 1000000]⟩
abbrev S1000000x64 : Shape := ⟨2, ![1000000, 64]⟩
abbrev S100000x128 : Shape := ⟨2, ![100000, 128]⟩
abbrev S1000000 : Shape := ⟨1, ![1000000]⟩
abbrev S100000 : Shape := ⟨1, ![100000]⟩
abbrev S192x256 : Shape := ⟨2, ![192, 256]⟩
abbrev S256 : Shape := ⟨1, ![256]⟩
abbrev S1000000x1 : Shape := ⟨2, ![1000000, 1]⟩
abbrev S1x1000000 : Shape := ⟨2, ![1, 1000000]⟩
abbrev S_ : Shape := ⟨0, ![]⟩
abbrev S100000x64 : Shape := ⟨2, ![100000, 64]⟩
abbrev S100000x1 : Shape := ⟨2, ![100000, 1]⟩
abbrev S100000x192 : Shape := ⟨2, ![100000, 192]⟩
abbrev S100000x256 : Shape := ⟨2, ![100000, 256]⟩
abbrev S1x256 : Shape := ⟨2, ![1, 256]⟩

abbrev nBuf : Space → Nat
  | .hbm => 39
  | .vmem => 0
  | .smem => 0
  | _ => 0

abbrev bufTy : (tb : Table) → Fin (tcTables nBuf tb) → BufTy
  | .hbm, ⟨0, _⟩ => ⟨S2x1000000, .i32⟩
  | .hbm, ⟨1, _⟩ => ⟨S1000000x64, .f32⟩
  | .hbm, ⟨2, _⟩ => ⟨S100000x128, .f32⟩
  | .hbm, ⟨3, _⟩ => ⟨S1000000, .f32⟩
  | .hbm, ⟨4, _⟩ => ⟨S100000, .f32⟩
  | .hbm, ⟨5, _⟩ => ⟨S192x256, .f32⟩
  | .hbm, ⟨6, _⟩ => ⟨S256, .f32⟩
  | .hbm, ⟨7, _⟩ => ⟨S1000000x1, .f32⟩
  | .hbm, ⟨8, _⟩ => ⟨S1000000x64, .f32⟩
  | .hbm, ⟨9, _⟩ => ⟨S1000000x64, .f32⟩
  | .hbm, ⟨10, _⟩ => ⟨S1x1000000, .i32⟩
  | .hbm, ⟨11, _⟩ => ⟨S1000000, .i32⟩
  | .hbm, ⟨12, _⟩ => ⟨S_, .f32⟩
  | .hbm, ⟨13, _⟩ => ⟨S100000x64, .f32⟩
  | .hbm, ⟨14, _⟩ => ⟨S1000000x1, .i32⟩
  | .hbm, ⟨15, _⟩ => ⟨S100000x64, .f32⟩
  | .hbm, ⟨16, _⟩ => ⟨S_, .f32⟩
  | .hbm, ⟨17, _⟩ => ⟨S1000000, .f32⟩
  | .hbm, ⟨18, _⟩ => ⟨S_, .f32⟩
  | .hbm, ⟨19, _⟩ => ⟨S100000, .f32⟩
  | .hbm, ⟨20, _⟩ => ⟨S1000000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x64, .f32⟩
  | .hbm, ⟨27, _⟩ => ⟨S100000x64, .f32⟩
  | .hbm, ⟨28, _⟩ => ⟨S100000x1, .f32⟩
  | .hbm, ⟨29, _⟩ => ⟨S100000x64, .f32⟩
  | .hbm, ⟨30, _⟩ => ⟨S100000x64, .f32⟩
  | .hbm, ⟨31, _⟩ => ⟨S100000x192, .f32⟩
  | .hbm, ⟨32, _⟩ => ⟨S100000x256, .f32⟩
  | .hbm, ⟨33, _⟩ => ⟨S1x256, .f32⟩
  | .hbm, ⟨34, _⟩ => ⟨S100000x256, .f32⟩
  | .hbm, ⟨35, _⟩ => ⟨S100000x256, .f32⟩
  | .hbm, ⟨36, _⟩ => ⟨S_, .f32⟩
  | .hbm, ⟨37, _⟩ => ⟨S100000x256, .f32⟩
  | .hbm, ⟨38, _⟩ => ⟨S100000x256, .f32⟩
  | _, _ => ⟨S2x1000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call0_cst : Ref sig .tc := ⟨.hbm, 36, rfl⟩
abbrev main_call0_v0 : Ref sig .tc := ⟨.hbm, 37, rfl⟩
abbrev main_v25 : Ref sig .tc := ⟨.hbm, 38, rfl⟩

abbrev nD : Nat := 1
abbrev τ : Topo := Topo.v7x

variable {F : FTy → Type} [FloatOps F]

class Facts₀ : Prop where
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  slices_S2x1000000_S1x1000000_0_0 : S2x1000000.Slices ![0, 0] S1x1000000
  shapeCasts_S1x1000000_S1000000 : S1x1000000.ShapeCasts S1000000
  bcast_S_S100000x64 : S_.BroadcastsInDim S100000x64 (![] : Fin 0 → Fin S100000x64.rank)
  bcast_S_S1000000 : S_.BroadcastsInDim S1000000 (![] : Fin 0 → Fin S1000000.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x128_S100000x64_S100000x192_d1 : Shape.Concatenates [S100000x128, S100000x64] S100000x192 1
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S100000x192_S192x256_S100000x256_1_0_0_1_n_n_wf : DotDims.WF S100000x192 S192x256 S100000x256 [1] [0] [0] [1] [] []

variable [Facts₀]

def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x192_S192x256_S100000x256_1_0_0_1_n_n : DotDims S100000x192 S192x256 S100000x256 where
  lhsContracting := [1]
  rhsContracting := [0]
  lhsNonContracting := [0]
  rhsNonContracting := [1]
  lhsBatch := []
  rhsBatch := []
  wf := dot_S100000x192_S192x256_S100000x256_1_0_0_1_n_n_wf

class Facts : Prop extends Facts₀ where

variable [Facts]
-- ==== Proof.EntryArrays.lean ====
/-
  What the kernel's windows find in their arrays when the region is entered.

  Before the one region the host computes: the per-node sums of the weighted edge rows and the per-node edge counts
  (two scatter-adds over the target row of the edge index, into zeros), the two row bands of W (rows 0..127 and
  128..191), and three re-layouts: the bias as a row [1, 256], the counts and the node weights as columns [100000, 1].
  Each is read off the list of host operations; none is evaluated.
-/
import proofs.«171690_j8229157339893_2_alg».proof.Proof.Gen.KernelIdeal.Frame
import Idealize.ShloMosaic.Lib.StableHlo.Run
import Idealize.ShloMosaic.PureOps.Ideal

noncomputable section

namespace Cert.KernelIdeal.Entry

open Cert.KernelIdeal Cert.KernelIdeal.Gen Idealize.ShloMosaic Idealize.ShloMosaic.TcCoe Idealize.SL.Sem
open Idealize.ShloMosaic.StableHlo

/-- The per-node sums of the weighted edge rows: edge row e, scaled by its edge weight, is added into the row named by
    the target entry of the edge index. -/
def sumsOf (x0 : (⟨S2x1000000, .i32⟩ : BufTy).Contents (Elt Ideal)) (x1 : (⟨S1000000x64, .f32⟩ : BufTy).Contents (Elt Ideal))
    (x3 : (⟨S1000000, .f32⟩ : BufTy).Contents (Elt Ideal)) : (⟨S100000x64, .f32⟩ : BufTy).Contents (Elt Ideal) :=
  Host.scatterAdd (F := Ideal) scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0
      (shapeCast _ (extractStridedSlice S1x1000000 ![0, 0] x0 slices_S2x1000000_S1x1000000_0_0) shapeCasts_S1x1000000_S1000000))
    (mulf x1 (broadcastInDim S1000000x64 ![0, 1] bcast_S1000000x1_S1000000x64_0_1
      (broadcastInDim S1000000x1 ![0] bcast_S1000000_S1000000x1_0 x3)))

/-- The per-node edge counts: a one is added, per edge, into the entry named by the target entry of the edge index. -/
def cntOf (x0 : (⟨S2x1000000, .i32⟩ : BufTy).Contents (Elt Ideal)) : (⟨S100000, .f32⟩ : BufTy).Contents (Elt Ideal) :=
  Host.scatterAdd (F := Ideal) scatter_S100000_S1000000x1_S1000000_n_0_0_1
    (broadcastInDim S100000 ![] bcast_S_S100000 (constant (F := Ideal) S_ .f32 0x00000000#32))
    (broadcastInDim S1000000x1 ![0] bcast_S1000000_S1000000x1_0
      (shapeCast _ (extractStridedSlice S1x1000000 ![0, 0] x0 slices_S2x1000000_S1x1000000_0_0) shapeCasts_S1x1000000_S1000000))
    (broadcastInDim S1000000 ![] bcast_S_S1000000 (constant (F := Ideal) S_ .f32 0x3F800000#32))

variable (m : (ℓ : Loc nD τ sig) → Buf (Elt Ideal) ℓ)

/-- Window 1's array: the sums. -/
theorem V_sums (c : Dev nD) :
    (V m c main_v7 : (⟨S100000x64, .f32⟩ : BufTy).Contents (Elt Ideal))
      = sumsOf (m ((c : Thread nD τ).loc main_arg0)) (m ((c : Thread nD τ).loc main_arg1)) (m ((c : Thread nD τ).loc main_arg3)) := by
  dsimp only [V, hostOps0]; after_results <;> rfl

/-- Window 2's array: the counts as a column. -/
theorem V_cntCol (c : Dev nD) :
    (V m c main_v15 : (⟨S100000x1, .f32⟩ : BufTy).Contents (Elt Ideal))
      = shapeCast S100000x1 (cntOf (m ((c : Thread nD τ).loc main_arg0))) shapeCasts_S100000_S100000x1 := by
  dsimp only [V, hostOps0]; after_results <;> rfl

/-- Window 3's array: the node weights as a column. -/
theorem V_nwCol (c : Dev nD) :
    (V m c main_v16 : (⟨S100000x1, .f32⟩ : BufTy).Contents (Elt Ideal))
      = shapeCast S100000x1 (m ((c : Thread nD τ).loc main_arg4)) shapeCasts_S100000_S100000x1 := by
  dsimp only [V, hostOps0]; after_results <;> rfl

/-- Window 4's array: rows 0..127 of W. -/
theorem V_wTop (c : Dev nD) :
    (V m c main_v12 : (⟨S128x256, .f32⟩ : BufTy).Contents (Elt Ideal))
      = extractStridedSlice S128x256 ![0, 0] (m ((c : Thread nD τ).loc main_arg5)) slices_S192x256_S128x256_0_0 := by
  dsimp only [V, hostOps0]; after_results <;> rfl

/-- Window 5's array: rows 128..191 of W. -/
theorem V_wBottom (c : Dev nD) :
    (V m c main_v13 : (⟨S64x256, .f32⟩ : BufTy).Contents (Elt Ideal))
      = extractStridedSlice S64x256 ![128, 0] (m ((c : Thread nD τ).loc main_arg5)) slices_S192x256_S64x256_128_0 := by
  dsimp only [V, hostOps0]; after_results <;> rfl

/-- Window 6's array: the bias as a row. -/
theorem V_biasRow (c : Dev nD) :
    (V m c main_v14 : (⟨S1x256, .f32⟩ : BufTy).Contents (Elt Ideal))
      = shapeCast S1x256 (m ((c : Thread nD τ).loc main_arg6)) shapeCasts_S256_S1x256 := by
  dsimp only [V, hostOps0]; after_results <;> rfl

end Cert.KernelIdeal.Entry

end
-- ==== Proof.LayerSpec.lean ====
/-
  The layer both programs compute, as ONE function of the argument arrays, entry by entry.

  With `sums` the per-node sums of the weighted edge rows and `cnt` the per-node edge counts (both produced by the same
  scatter-add on either side, so they enter here as given arrays), the output at node `r` and channel `q` is

      max ( Σ_{k<128} node (r,k) · W (k,q)  +  Σ_{j<64} mean (r,j) · W (128+j, q)  +  b q ,  0 )

  where  mean (r,j) = (sums (r,j) · nw r) / max (cnt r) 1.

  Two laws relate the two programs' arrangements of this value, and both hold on all of the extended reals:
  a product may change places with a division by a NONZERO divisor (division off zero is multiplication by the
  inverse, and multiplication is commutative and associative), and a sum over 192 consecutive indices is the sum over
  the first 128 plus the sum over the last 64. The divisor `max (cnt r) 1` is at least one, hence never zero, so no
  finiteness of any input is needed.
-/
import Idealize.ShloMosaic.PureOps.Ideal.Laws
import Idealize.ShloMosaic.Lib.ValueIdx

noncomputable section

namespace Cert.LayerSpec

open Idealize.ShloMosaic Idealize.ShloMosaic.ValueIdx
open scoped BigOperators

/-- The f32 pattern of one, as the extended real it denotes. -/
abbrev one32 : EReal := Ideal.ofBits .f32 0x3F800000#32
/-- The f32 pattern of zero, as the extended real it denotes. -/
abbrev zero32 : EReal := Ideal.ofBits .f32 0x00000000#32

/-- The pattern of one denotes the number one. -/
theorem one32_eq : one32 = 1 := by
  simp [one32, Ideal.ofBits, Ideal.ieee]
  norm_cast
  norm_num

/-- A count clamped below by one is not zero. -/
theorem max_one32_ne_zero (c : EReal) : max c one32 ≠ 0 := by
  have h1 : (0 : EReal) < one32 := by rw [one32_eq]; exact zero_lt_one
  exact (lt_of_lt_of_le h1 (le_max_right c one32)).ne'

/-- Off a zero divisor, a factor may be taken out of the numerator: (s · w) / d = (s / d) · w, at the infinities too. -/
theorem div_mul_right_comm (s w d : EReal) (hd : d ≠ 0) : Ideal.div (s * w) d = Ideal.div s d * w := by
  unfold Ideal.div
  rw [if_neg hd, if_neg hd]
  exact mul_right_comm s w d⁻¹

/-- The first 128 of 192 indices. -/
abbrev lo (k : Fin 128) : Fin 192 := ⟨k.val, by omega⟩
/-- The last 64 of 192 indices. -/
abbrev hi (j : Fin 64) : Fin 192 := ⟨128 + j.val, by omega⟩

/-- A sum over 192 indices is the sum over the first 128 plus the sum over the last 64. -/
theorem sum_split (f : Fin 192 → EReal) :
    ∑ k : Fin 192, f k = (∑ k : Fin 128, f (lo k)) + ∑ j : Fin 64, f (hi j) :=
  Fin.sum_univ_add (a := 128) (b := 64) f

/-- The weighted mean of node `r`'s incoming edge rows at feature `j`. -/
def meanAt (sums : (⟨2, ![100000, 64]⟩ : Shape).Idx → EReal) (cnt nw : (⟨1, ![100000]⟩ : Shape).Idx → EReal)
    (r : Fin 100000) (j : Fin 64) : EReal :=
  Ideal.div (sums (ix2 r j) * nw (ix1 r)) (max (cnt (ix1 r)) one32)

/-- The layer's output: relu of node features and weighted means against the two row bands of `W`, plus the bias. -/
def layerOut (node : (⟨2, ![100000, 128]⟩ : Shape).Idx → EReal) (sums : (⟨2, ![100000, 64]⟩ : Shape).Idx → EReal)
    (cnt nw : (⟨1, ![100000]⟩ : Shape).Idx → EReal) (W : (⟨2, ![192, 256]⟩ : Shape).Idx → EReal)
    (b : (⟨1, ![256]⟩ : Shape).Idx → EReal) : (⟨2, ![100000, 256]⟩ : Shape).Idx → EReal := fun i =>
  max (((∑ k : Fin 128, node (ix2 (i 0) k) * W (ix2 (lo k) (i 1)))
        + ∑ j : Fin 64, meanAt sums cnt nw (i 0) j * W (ix2 (hi j) (i 1)))
      + b (ix1 (i 1))) zero32

/-- The specification at explicit coordinates. -/
theorem layerOut_apply (node : (⟨2, ![100000, 128]⟩ : Shape).Idx → EReal) (sums : (⟨2, ![100000, 64]⟩ : Shape).Idx → EReal)
    (cnt nw : (⟨1, ![100000]⟩ : Shape).Idx → EReal) (W : (⟨2, ![192, 256]⟩ : Shape).Idx → EReal)
    (b : (⟨1, ![256]⟩ : Shape).Idx → EReal) (p : Fin 100000) (q : Fin 256) :
    layerOut node sums cnt nw W b (ix2 p q)
      = max (((∑ k : Fin 128, node (ix2 p k) * W (ix2 (lo k) q))
            + ∑ j : Fin 64, meanAt sums cnt nw p j * W (ix2 (hi j) q))
          + b (ix1 q)) zero32 := rfl

end Cert.LayerSpec

end
-- ==== Proof.LibDot.lean ====
/-
  A plain matrix product read at an entry.  For dimension numbers that contract the left operand's axis 1 with the right
  operand's axis 0 and have no batch axis, both the matrix unit's product into a zero accumulator and the host's
  dot_general are, at the ideal reading, the textbook sum Σ_i lhs (p, i) · rhs (i, q): the contraction index is its one
  coordinate, and the operand indices at (p, q) and i are (p, i) and (i, q).
-/
import Idealize.ShloMosaic.PureOps.Ideal.Laws
import Idealize.ShloMosaic.Lib.ValueIdx

noncomputable section

namespace Cert.LibDot

open Idealize.ShloMosaic Idealize.ShloMosaic.ValueIdx
open scoped BigOperators

variable {a k b : ℕ} (D : DotDims ⟨2, ![a, k]⟩ ⟨2, ![k, b]⟩ ⟨2, ![a, b]⟩) (hr : D.contr.rank = 1)
  (hs : D.contr.size ⟨0, by omega⟩ = k)
  (hl0 : ∀ j q, (D.lhsIdx j q 0).val = (j 0).val) (hl1 : ∀ j q, (D.lhsIdx j q 1).val = (q ⟨0, by omega⟩).val)
  (hr0 : ∀ j q, (D.rhsIdx j q 0).val = (q ⟨0, by omega⟩).val) (hr1 : ∀ j q, (D.rhsIdx j q 1).val = (j 1).val)

include hr hs hl0 hl1 hr0 hr1

/-- The sum over the contraction index is the sum over its one coordinate, the operands read at (p, i) and (i, q). -/
theorem sum_plain (lhs : (⟨2, ![a, k]⟩ : Shape).Idx → EReal) (rhs : (⟨2, ![k, b]⟩ : Shape).Idx → EReal) (p : Fin a) (q : Fin b) :
    (∑ c : D.contr.Idx, lhs (D.lhsIdx (ix2 p q) c) * rhs (D.rhsIdx (ix2 p q) c)) = ∑ i : Fin k, lhs (ix2 p i) * rhs (ix2 i q) := by
  rw [← Equiv.sum_comp (contrEquiv1 D k hr hs).symm]
  refine Finset.sum_congr rfl fun i _ => ?_
  have hk := contrEquiv1_symm_val D k hr hs i
  have el : D.lhsIdx (ix2 p q) ((contrEquiv1 D k hr hs).symm i) = ix2 p i := funext fun ax => Fin.ext (by
    match ax with
    | ⟨0, _⟩ => exact hl0 _ _
    | ⟨1, _⟩ => exact (hl1 _ _).trans hk)
  have er : D.rhsIdx (ix2 p q) ((contrEquiv1 D k hr hs).symm i) = ix2 i q := funext fun ax => Fin.ext (by
    match ax with
    | ⟨0, _⟩ => exact (hr0 _ _).trans hk
    | ⟨1, _⟩ => exact hr1 _ _)
  rw [el, er]

/-- The matrix unit's product into a zero accumulator, at entry (p, q). -/
theorem matmul_zero_apply {φ₁ φ₂ : FTy} (prec : Option ContractPrecision) (lhs : FVec Ideal ⟨2, ![a, k]⟩ φ₁)
    (rhs : FVec Ideal ⟨2, ![k, b]⟩ φ₂) (p : Fin a) (q : Fin b) :
    FloatOps.matmul D prec lhs rhs (constant ⟨2, ![a, b]⟩ .f32 0x00000000#32) (ix2 p q) = ∑ i : Fin k, lhs (ix2 p i) * rhs (ix2 i q) :=
  (Ideal.matmul_constant_zero_apply D prec lhs rhs (ix2 p q)).trans (sum_plain D hr hs hl0 hl1 hr0 hr1 lhs rhs p q)

/-- The host's dot_general, at entry (p, q). -/
theorem dotGeneral_apply {φ₁ φ₂ : FTy} (prec : Option ContractPrecision) (sched : HostSchedule) (lhs : FVec Ideal ⟨2, ![a, k]⟩ φ₁)
    (rhs : FVec Ideal ⟨2, ![k, b]⟩ φ₂) (p : Fin a) (q : Fin b) :
    FloatOps.dotGeneral D prec sched lhs rhs (ix2 p q) = ∑ i : Fin k, lhs (ix2 p i) * rhs (ix2 i q) :=
  (Ideal.dotGeneral_apply D prec sched lhs rhs (ix2 p q)).trans (sum_plain D hr hs hl0 hl1 hr0 hr1 lhs rhs p q)

end Cert.LibDot

end
-- ==== Proof.LibColumnLayout.lean ====
/-
  Two layout operations on a column, read at an index: the forms a row sum kept as a column goes through before it meets a
  full matrix. (The library has the row forms `[a] → [1, a]` and `[1, b] → [a, b]`; these are their column counterparts.)
  Library imports only.
-/
import Idealize.ShloMosaic.Lib.ValueIdx
import Idealize.ShloMosaic.Lib.ValueLayout
import Idealize.ShloMosaic.Lib.Pipeline.Value

namespace Cert.LibColumnLayout

open Idealize.ShloMosaic Idealize.ShloMosaic.ValueIdx

/-- An `[a]` array cast to `[a, 1]` reads, at `(i, u)`, the operand at `i`, whatever the unit coordinate `u`: both indices
    have row-major position `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`, whatever `c`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnLayout
-- ==== Proof.BodyValue.lean ====
/-
  What the kernel body stores, entry by entry, as a function of the blocks it loads.

  At row p of the block and channel q the stored value is

      max ( Σ_{k<128} node (p,k) · w1 (k,q)  +  Σ_{j<64} ((sums (p,j) · nw (p,0)) / max (cnt (p,0)) 1) · w2 (j,q)  +  bias (0,q) , 0 ):

  the two matrix products start from a zero accumulator, so each is the plain sum over its contracted axis; the node
  weight and the clamped count are columns spread along the 64 features; the bias is a row spread along the 5000 rows;
  the identity shape casts drop.
-/
import proofs.«171690_j8229157339893_2_alg».proof.Proof.Gen.KernelIdeal.Skeleton
import proofs.«171690_j8229157339893_2_alg».proof.Proof.LayerSpec
import proofs.«171690_j8229157339893_2_alg».proof.Proof.LibDot
import proofs.«171690_j8229157339893_2_alg».proof.Proof.LibColumnLayout
import Idealize.ShloMosaic.Lib.Pipeline.Value
import Idealize.ShloMosaic.Lib.ValueLayout

noncomputable section

namespace Cert.KernelIdeal.BodyValue

open Cert.KernelIdeal Cert.KernelIdeal.Gen
open Idealize.ShloMosaic Idealize.ShloMosaic.ValueIdx Cert.LayerSpec
open scoped BigOperators

/-! ## The two products' dimension numbers: left axis 1 against right axis 0, no batch axis -/

theorem dotNode_l0 (j : S5000x256.Idx) (c : dot_S5000x128_S128x256_S5000x256_1_0_0_1_n_n.contr.Idx) :
    (dot_S5000x128_S128x256_S5000x256_1_0_0_1_n_n.lhsIdx j c 0).val = (j 0).val := by
  unfold DotDims.lhsIdx
  rw [dif_neg (show ¬(0 : Fin S5000x128.rank) ∈ dot_S5000x128_S128x256_S5000x256_1_0_0_1_n_n.lhsBatch by decide),
    dif_pos (show (0 : Fin S5000x128.rank) ∈ dot_S5000x128_S128x256_S5000x256_1_0_0_1_n_n.lhsNonContracting by decide)]
  rfl
theorem dotNode_l1 (j : S5000x256.Idx) (c : dot_S5000x128_S128x256_S5000x256_1_0_0_1_n_n.contr.Idx) :
    (dot_S5000x128_S128x256_S5000x256_1_0_0_1_n_n.lhsIdx j c 1).val = (c ⟨0, by decide⟩).val :=
  dot_S5000x128_S128x256_S5000x256_1_0_0_1_n_n.lhsIdx_val_of_single rfl j c
theorem dotNode_r0 (j : S5000x256.Idx) (c : dot_S5000x128_S128x256_S5000x256_1_0_0_1_n_n.contr.Idx) :
    (dot_S5000x128_S128x256_S5000x256_1_0_0_1_n_n.rhsIdx j c 0).val = (c ⟨0, by decide⟩).val :=
  dot_S5000x128_S128x256_S5000x256_1_0_0_1_n_n.rhsIdx_val_of_single rfl j c
theorem dotNode_r1 (j : S5000x256.Idx) (c : dot_S5000x128_S128x256_S5000x256_1_0_0_1_n_n.contr.Idx) :
    (dot_S5000x128_S128x256_S5000x256_1_0_0_1_n_n.rhsIdx j c 1).val = (j 1).val := by
  unfold DotDims.rhsIdx
  rw [dif_neg (show ¬(1 : Fin S128x256.rank) ∈ dot_S5000x128_S128x256_S5000x256_1_0_0_1_n_n.rhsBatch by decide),
    dif_pos (show (1 : Fin S128x256.rank) ∈ dot_S5000x128_S128x256_S5000x256_1_0_0_1_n_n.rhsNonContracting by decide)]
  rfl

theorem dotMean_l0 (j : S5000x256.Idx) (c : dot_S5000x64_S64x256_S5000x256_1_0_0_1_n_n.contr.Idx) :
    (dot_S5000x64_S64x256_S5000x256_1_0_0_1_n_n.lhsIdx j c 0).val = (j 0).val := by
  unfold DotDims.lhsIdx
  rw [dif_neg (show ¬(0 : Fin S5000x64.rank) ∈ dot_S5000x64_S64x256_S5000x256_1_0_0_1_n_n.lhsBatch by decide),
    dif_pos (show (0 : Fin S5000x64.rank) ∈ dot_S5000x64_S64x256_S5000x256_1_0_0_1_n_n.lhsNonContracting by decide)]
  rfl
theorem dotMean_l1 (j : S5000x256.Idx) (c : dot_S5000x64_S64x256_S5000x256_1_0_0_1_n_n.contr.Idx) :
    (dot_S5000x64_S64x256_S5000x256_1_0_0_1_n_n.lhsIdx j c 1).val = (c ⟨0, by decide⟩).val :=
  dot_S5000x64_S64x256_S5000x256_1_0_0_1_n_n.lhsIdx_val_of_single rfl j c
theorem dotMean_r0 (j : S5000x256.Idx) (c : dot_S5000x64_S64x256_S5000x256_1_0_0_1_n_n.contr.Idx) :
    (dot_S5000x64_S64x256_S5000x256_1_0_0_1_n_n.rhsIdx j c 0).val = (c ⟨0, by decide⟩).val :=
  dot_S5000x64_S64x256_S5000x256_1_0_0_1_n_n.rhsIdx_val_of_single rfl j c
theorem dotMean_r1 (j : S5000x256.Idx) (c : dot_S5000x64_S64x256_S5000x256_1_0_0_1_n_n.contr.Idx) :
    (dot_S5000x64_S64x256_S5000x256_1_0_0_1_n_n.rhsIdx j c 1).val = (j 1).val := by
  unfold DotDims.rhsIdx
  rw [dif_neg (show ¬(1 : Fin S64x256.rank) ∈ dot_S5000x64_S64x256_S5000x256_1_0_0_1_n_n.rhsBatch by decide),
    dif_pos (show (1 : Fin S64x256.rank) ∈ dot_S5000x64_S64x256_S5000x256_1_0_0_1_n_n.rhsNonContracting by decide)]
  rfl

/-! ## The stored value at (p, q) -/

/-- The body's one store, read at row `p` and channel `q` of the block. -/
theorem stored_apply (node : (⟨2, ![5000, 128]⟩ : Shape).Idx → EReal) (sums : (⟨2, ![5000, 64]⟩ : Shape).Idx → EReal)
    (cnt nw : (⟨2, ![5000, 1]⟩ : Shape).Idx → EReal) (w1 : (⟨2, ![128, 256]⟩ : Shape).Idx → EReal)
    (w2 : (⟨2, ![64, 256]⟩ : Shape).Idx → EReal) (bias : (⟨2, ![1, 256]⟩ : Shape).Idx → EReal) (p : Fin 5000) (q : Fin 256) :
    k0_pay1 (F := Ideal) node sums cnt nw w1 w2 bias (ix2 p q)
      = max (((∑ k : Fin 128, node (ix2 p k) * w1 (ix2 k q))
            + ∑ j : Fin 64, Ideal.div (sums (ix2 p j) * nw (ix2 p (0 : Fin 1))) (max (cnt (ix2 p (0 : Fin 1))) one32) * w2 (ix2 j q))
          + bias (ix2 (0 : Fin 1) q)) zero32 := by
  unfold k0_pay1
  simp only [shapeCast_self]
  show (max ((_ + _) + _) _ : EReal) = _
  refine congrArg₂ max (congrArg₂ (· + ·) (congrArg₂ (· + ·) ?_ ?_) ?_) rfl
  · exact Cert.LibDot.matmul_zero_apply dot_S5000x128_S128x256_S5000x256_1_0_0_1_n_n rfl rfl dotNode_l0 dotNode_l1 dotNode_r0
      dotNode_r1 none node w1 p q
  · refine (Cert.LibDot.matmul_zero_apply dot_S5000x64_S64x256_S5000x256_1_0_0_1_n_n rfl rfl dotMean_l0 dotMean_l1 dotMean_r0
      dotMean_r1 none _ w2 p q).trans (Finset.sum_congr rfl fun j _ => ?_)
    refine congrArg (· * w2 (ix2 j q)) ?_
    exact congrArg₂ Ideal.div
      (congrArg (sums (ix2 p j) * ·) (Cert.LibColumnLayout.broadcastTo_a1_ab_apply nw broadcasts_S5000x1_S5000x64 p j))
      (Cert.LibColumnLayout.broadcastTo_a1_ab_apply _ broadcasts_S5000x1_S5000x64 p j)
  · exact broadcastTo_1b_ab_apply bias broadcasts_S1x256_S5000x256 p q

end Cert.KernelIdeal.BodyValue

end
-- ==== Proof.LayerValue.lean ====
/-
  The kernel's result array is the layer specification.

  The grid has 20 points; point t works on rows 5000·t .. 5000·t + 4999. Its node, sums, count and node-weight blocks are
  those rows of their arrays; the two bands of W and the bias row are the same whole block at every point. So the value
  the body stores at (p, q) of its block is the specification at (5000·t + p, q): the node block against the top band of
  W, the mean block against the bottom band, the count and the weight read from their columns, the bias from its row.
  The 20 output blocks tile the 100000 rows, so the array after the run is the specification everywhere.
-/
import proofs.«171690_j8229157339893_2_alg».proof.Proof.Gen.KernelIdeal.Value
import proofs.«171690_j8229157339893_2_alg».proof.Proof.EntryArrays
import proofs.«171690_j8229157339893_2_alg».proof.Proof.BodyValue
import proofs.«171690_j8229157339893_2_alg».proof.Proof.LayerSpec
import proofs.«171690_j8229157339893_2_alg».proof.Proof.LibColumnLayout
import Idealize.ShloMosaic.Lib.ValueLayout

noncomputable section

namespace Cert.KernelIdeal.LayerValue

open Cert.KernelIdeal Cert.KernelIdeal.Gen Cert.KernelIdeal.Entry Cert.KernelIdeal.BodyValue Cert.LayerSpec
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

theorem hz : (![0, 0] : Fin 2 → Nat) = fun _ => 0 := funext fun a => by fin_cases a <;> rfl

/-- The index maps over the 20 points: the row-blocked windows (node, sums, counts, weights, output) are at block row
    t, block column 0; the two bands of W and the bias row stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem lt20 (t : Fin cfg0.N) : t.val < 20 := lt_of_lt_of_eq t.isLt N_0

/-- Row p of point t's blocks is row 5000·t + p of the arrays. -/
def rowOf (t : Fin cfg0.N) (p : Fin 5000) : Fin 100000 :=
  ⟨t.val * 5000 + p.val, by have := lt20 t; have := p.isLt; omega⟩

/-! ## Each input block, read at its place in its array

A block read is the array read at the block's embedding of the index; the embedding of (p, ·) at point t is
(5000·t + p, ·) for the row-blocked windows and the index itself for the windows that stay at block (0, 0). -/

theorem node_blk (c : Dev nD) (t : Fin cfg0.N) (p : Fin 5000) (k : Fin 128) :
    iblk m c 0 t (ix2 p k : S5000x128.Idx) = (m ((c : Thread nD τ).loc main_arg2)) (ix2 (rowOf t p) k) := by
  obtain ⟨e0, e1, -⟩ := idx_facts t
  have he : ((cfg0.win 0).blk t).view.emb (ix2 p k : S5000x128.Idx) = ix2 (rowOf t p) k :=
    funext fun a => Fin.ext (by
      match a with
      | ⟨0, _⟩ => show win0_0.index t (0 : Fin 2) * 5000 + 1 * p.val = t.val * 5000 + p.val; rw [e0]; omega
      | ⟨1, _⟩ => show win0_0.index t (1 : Fin 2) * 128 + 1 * k.val = k.val; rw [e1]; omega)
  unfold iblk
  rw [View.read_apply, V_main_arg2, he]
  exact cast_eq _ _

theorem sums_blk (c : Dev nD) (t : Fin cfg0.N) (p : Fin 5000) (j : Fin 64) :
    iblk m c 1 t (ix2 p j : S5000x64.Idx) = sumsOf (m ((c : Thread nD τ).loc main_arg0)) (m ((c : Thread nD τ).loc main_arg1)) (m ((c : Thread nD τ).loc main_arg3)) (ix2 (rowOf t p) j) := by
  obtain ⟨-, -, e0, e1, -⟩ := idx_facts t
  have he : ((cfg0.win 1).blk t).view.emb (ix2 p j : S5000x64.Idx) = ix2 (rowOf t p) j :=
    funext fun a => Fin.ext (by
      match a with
      | ⟨0, _⟩ => show win0_1.index t (0 : Fin 2) * 5000 + 1 * p.val = t.val * 5000 + p.val; rw [e0]; omega
      | ⟨1, _⟩ => show win0_1.index t (1 : Fin 2) * 64 + 1 * j.val = j.val; rw [e1]; omega)
  unfold iblk
  rw [View.read_apply, V_sums, he]
  exact cast_eq _ _

theorem cnt_blk (c : Dev nD) (t : Fin cfg0.N) (p : Fin 5000) :
    iblk m c 2 t (ix2 p (0 : Fin 1) : S5000x1.Idx) = cntOf (m ((c : Thread nD τ).loc main_arg0)) (ix1 (rowOf t p)) := by
  obtain ⟨-, -, -, -, e0, e1, -⟩ := idx_facts t
  have he : ((cfg0.win 2).blk t).view.emb (ix2 p (0 : Fin 1) : S5000x1.Idx) = ix2 (rowOf t p) (0 : Fin 1) :=
    funext fun a => Fin.ext (by
      match a with
      | ⟨0, _⟩ => show win0_2.index t (0 : Fin 2) * 5000 + 1 * p.val = t.val * 5000 + p.val; rw [e0]; omega
      | ⟨1, _⟩ => show win0_2.index t (1 : Fin 2) * 1 + 1 * 0 = 0; rw [e1])
  unfold iblk
  rw [View.read_apply, V_cntCol, he]
  refine (cast_eq _ _).trans ?_
  exact Cert.LibColumnLayout.shapeCast_a_a1_apply (cntOf (m ((c : Thread nD τ).loc main_arg0))) shapeCasts_S100000_S100000x1 (rowOf t p) (0 : Fin 1)

theorem nw_blk (c : Dev nD) (t : Fin cfg0.N) (p : Fin 5000) :
    iblk m c 3 t (ix2 p (0 : Fin 1) : S5000x1.Idx) = (m ((c : Thread nD τ).loc main_arg4)) (ix1 (rowOf t p)) := by
  obtain ⟨-, -, -, -, -, -, e0, e1, -⟩ := idx_facts t
  have he : ((cfg0.win 3).blk t).view.emb (ix2 p (0 : Fin 1) : S5000x1.Idx) = ix2 (rowOf t p) (0 : Fin 1) :=
    funext fun a => Fin.ext (by
      match a with
      | ⟨0, _⟩ => show win0_3.index t (0 : Fin 2) * 5000 + 1 * p.val = t.val * 5000 + p.val; rw [e0]; omega
      | ⟨1, _⟩ => show win0_3.index t (1 : Fin 2) * 1 + 1 * 0 = 0; rw [e1])
  unfold iblk
  rw [View.read_apply, V_nwCol, he]
  refine (cast_eq _ _).trans ?_
  exact Cert.LibColumnLayout.shapeCast_a_a1_apply (m ((c : Thread nD τ).loc main_arg4)) shapeCasts_S100000_S100000x1 (rowOf t p) (0 : Fin 1)

theorem wTop_blk (c : Dev nD) (t : Fin cfg0.N) (k : Fin 128) (q : Fin 256) :
    iblk m c 4 t (ix2 k q : S128x256.Idx) = (m ((c : Thread nD τ).loc main_arg5)) (ix2 (lo k) q) := by
  obtain ⟨-, -, -, -, -, -, -, -, e0, e1, -⟩ := idx_facts t
  have he : ((cfg0.win 4).blk t).view.emb (ix2 k q : S128x256.Idx) = ix2 k q :=
    funext fun a => Fin.ext (by
      match a with
      | ⟨0, _⟩ => show win0_4.index t (0 : Fin 2) * 128 + 1 * k.val = k.val; rw [e0]; omega
      | ⟨1, _⟩ => show win0_4.index t (1 : Fin 2) * 256 + 1 * q.val = q.val; rw [e1]; omega)
  unfold iblk
  rw [View.read_apply, V_wTop, he]
  refine (cast_eq _ _).trans ?_
  exact slice2_axis0_apply 0 (m ((c : Thread nD τ).loc main_arg5)) slices_S192x256_S128x256_0_0 k q (lo k) (by show k.val = 0 + k.val; omega)

theorem wBottom_blk (c : Dev nD) (t : Fin cfg0.N) (j : Fin 64) (q : Fin 256) :
    iblk m c 5 t (ix2 j q : S64x256.Idx) = (m ((c : Thread nD τ).loc main_arg5)) (ix2 (hi j) q) := by
  obtain ⟨-, -, -, -, -, -, -, -, -, -, e0, e1, -⟩ := idx_facts t
  have he : ((cfg0.win 5).blk t).view.emb (ix2 j q : S64x256.Idx) = ix2 j q :=
    funext fun a => Fin.ext (by
      match a with
      | ⟨0, _⟩ => show win0_5.index t (0 : Fin 2) * 64 + 1 * j.val = j.val; rw [e0]; omega
      | ⟨1, _⟩ => show win0_5.index t (1 : Fin 2) * 256 + 1 * q.val = q.val; rw [e1]; omega)
  unfold iblk
  rw [View.read_apply, V_wBottom, he]
  refine (cast_eq _ _).trans ?_
  exact slice2_axis0_apply 128 (m ((c : Thread nD τ).loc main_arg5)) slices_S192x256_S64x256_128_0 j q (hi j) rfl

theorem bias_blk (c : Dev nD) (t : Fin cfg0.N) (q : Fin 256) :
    iblk m c 6 t (ix2 (0 : Fin 1) q : S1x256.Idx) = (m ((c : Thread nD τ).loc main_arg6)) (ix1 q) := by
  obtain ⟨-, -, -, -, -, -, -, -, -, -, -, -, e0, e1, -⟩ := idx_facts t
  have he : ((cfg0.win 6).blk t).view.emb (ix2 (0 : Fin 1) q : S1x256.Idx) = ix2 (0 : Fin 1) q :=
    funext fun a => Fin.ext (by
      match a with
      | ⟨0, _⟩ => show win0_6.index t (0 : Fin 2) * 1 + 1 * 0 = 0; rw [e0]
      | ⟨1, _⟩ => show win0_6.index t (1 : Fin 2) * 256 + 1 * q.val = q.val; rw [e1]; omega)
  unfold iblk
  rw [View.read_apply, V_biasRow, he]
  refine (cast_eq _ _).trans ?_
  exact shapeCast_a_1a_apply (m ((c : Thread nD τ).loc main_arg6)) shapeCasts_S256_S1x256 (0 : Fin 1) q

/-- Entry (p, q) of point t's output block is entry (5000·t + p, q) of the result array. -/
theorem out_emb (t : Fin cfg0.N) (p : Fin 5000) (q : Fin 256) :
    ((cfg0.win 7).blk t).view.emb (ix2 p q : S5000x256.Idx) = ix2 (rowOf t p) q := by
  obtain ⟨-, -, -, -, -, -, -, -, -, -, -, -, -, -, e0, e1⟩ := idx_facts t
  refine funext fun a => Fin.ext ?_
  match a with
  | ⟨0, _⟩ => show win0_7.index t (0 : Fin 2) * 5000 + 1 * p.val = t.val * 5000 + p.val; rw [e0]; omega
  | ⟨1, _⟩ => show win0_7.index t (1 : Fin 2) * 256 + 1 * q.val = q.val; rw [e1]; omega

/-! ## What each point writes back, the cover, and the array after the run -/

/-- Point t writes back block t of the specification. -/
theorem flushed_eq (c : Dev nD) (t : Fin cfg0.N) :
    (dats m 0 c).flushed 7 t = ((cfg0.win 7).blk t).view.read (Elt Ideal) (layerOut (m ((c : Thread nD τ).loc main_arg2)) (sumsOf (m ((c : Thread nD τ).loc main_arg0)) (m ((c : Thread nD τ).loc main_arg1)) (m ((c : Thread nD τ).loc main_arg3))) (cntOf (m ((c : Thread nD τ).loc main_arg0))) (m ((c : Thread nD τ).loc main_arg4)) (m ((c : Thread nD τ).loc main_arg5)) (m ((c : Thread nD τ).loc main_arg6))) := by
  rw [Cert.KernelIdeal.Value.flushed7]
  unfold out0_7
  rw [View.canon_unit_zero hz]
  simp only [View.ld_unit_zero (S := S5000x128) hz, View.ld_unit_zero (S := S5000x64) hz, View.ld_unit_zero (S := S5000x1) hz,
    View.ld_unit_zero (S := S128x256) hz, View.ld_unit_zero (S := S64x256) hz, View.ld_unit_zero (S := S1x256) hz]
  funext y
  obtain ⟨p, q, rfl⟩ : ∃ (p : Fin 5000) (q : Fin 256), y = ix2 p q := ⟨y 0, y 1, eq_ix2 y⟩
  rw [View.read_apply, out_emb t p q, layerOut_apply]
  refine Eq.trans ?_ (cast_eq _ _).symm
  show k0_pay1 (F := Ideal) (iblk m c 0 t) (iblk m c 1 t) (iblk m c 2 t) (iblk m c 3 t) (iblk m c 4 t) (iblk m c 5 t)
      (iblk m c 6 t) (ix2 p q) = _
  refine (stored_apply (iblk m c 0 t) (iblk m c 1 t) (iblk m c 2 t) (iblk m c 3 t) (iblk m c 4 t) (iblk m c 5 t)
    (iblk m c 6 t) p q).trans ?_
  unfold meanAt
  refine congrArg₂ max (congrArg₂ (· + ·) (congrArg₂ (· + ·) (Finset.sum_congr rfl fun k _ => ?_)
    (Finset.sum_congr rfl fun j _ => ?_)) ?_) rfl
  · exact congrArg₂ (· * ·) (node_blk m c t p k) (wTop_blk m c t k q)
  · exact congrArg₂ (· * ·)
      (congrArg₂ Ideal.div (congrArg₂ (· * ·) (sums_blk m c t p j) (nw_blk m c t p)) (congrArg (max · one32) (cnt_blk m c t p)))
      (wBottom_blk m c t j q)
  · exact bias_blk m c t q

/-- An index of the result array is in point t's block iff each coordinate is in the block's range on its axis. -/
theorem mem_blk (t : Fin cfg0.N) (i : S100000x256.Idx) :
    i ∈ ((cfg0.win 7).blk t).view.set ↔ ∀ a : Fin 2, win0_7.index t a * S5000x256.size a ≤ (i a).val
      ∧ (i a).val < win0_7.index t a * S5000x256.size a + S5000x256.size a := by
  show i ∈ ((View.whole main_v17).slice (win0_7.rect t)).set ↔ _
  rw [View.set_slice_whole, Rect.mem_set_unit]
  exact Iff.rfl

/-- Every index of the result array is in the block of the point its row falls in: row r is in block r / 5000. -/
theorem cover (i : S100000x256.Idx) : ∃ t : Fin cfg0.N, (cfg0.win 7).flush t = true ∧ i ∈ ((cfg0.win 7).blk t).view.set := by
  have hi0 : (i 0).val < 100000 := (i 0).isLt
  have hi1 : (i 1).val < 256 := (i 1).isLt
  obtain ⟨t, ht⟩ : ∃ t : Fin cfg0.N, t.val = (i 0).val / 5000 :=
    ⟨⟨(i 0).val / 5000, lt_of_lt_of_eq (by omega : (i 0).val / 5000 < 20) N_0.symm⟩, rfl⟩
  obtain ⟨-, -, -, -, -, -, -, -, -, -, -, -, -, -, e0, e1⟩ := idx_facts t
  refine ⟨t, flush0_7 t, ?_⟩
  rw [mem_blk]
  intro a
  match a with
  | ⟨0, _⟩ =>
    show win0_7.index t (0 : Fin 2) * 5000 ≤ (i 0).val ∧ (i 0).val < win0_7.index t (0 : Fin 2) * 5000 + 5000
    rw [e0]; omega
  | ⟨1, _⟩ =>
    show win0_7.index t (1 : Fin 2) * 256 ≤ (i 1).val ∧ (i 1).val < win0_7.index t (1 : Fin 2) * 256 + 256
    rw [e1]; omega

/-- The result array after the run is the specification. -/
theorem final (c : Dev nD) : (dats m 0 c).arrAt 7 cfg0.N = (layerOut (m ((c : Thread nD τ).loc main_arg2)) (sumsOf (m ((c : Thread nD τ).loc main_arg0)) (m ((c : Thread nD τ).loc main_arg1)) (m ((c : Thread nD τ).loc main_arg3))) (cntOf (m ((c : Thread nD τ).loc main_arg0))) (m ((c : Thread nD τ).loc main_arg4)) (m ((c : Thread nD τ).loc main_arg5)) (m ((c : Thread nD τ).loc main_arg6))) :=
  (dats m 0 c).arrAt_eq_of_cover 7 (layerOut (m ((c : Thread nD τ).loc main_arg2)) (sumsOf (m ((c : Thread nD τ).loc main_arg0)) (m ((c : Thread nD τ).loc main_arg1)) (m ((c : Thread nD τ).loc main_arg3))) (cntOf (m ((c : Thread nD τ).loc main_arg0))) (m ((c : Thread nD τ).loc main_arg4)) (m ((c : Thread nD τ).loc main_arg5)) (m ((c : Thread nD τ).loc main_arg6))) (fun t _ => flushed_eq m c t) cover

/-- The kernel's run: it terminates with the result array at the specification and the arguments unchanged. -/
theorem run : θ_run defs (onTc (τ := τ) (main (F := Ideal))) ⟨m, fun _ => 0, ρ⟩ fun r => ∀ c : Dev nD,
      r.2.mem ((c : Thread nD τ).loc main_v17) = (layerOut (m ((c : Thread nD τ).loc main_arg2)) (sumsOf (m ((c : Thread nD τ).loc main_arg0)) (m ((c : Thread nD τ).loc main_arg1)) (m ((c : Thread nD τ).loc main_arg3))) (cntOf (m ((c : Thread nD τ).loc main_arg0))) (m ((c : Thread nD τ).loc main_arg4)) (m ((c : Thread nD τ).loc main_arg5)) (m ((c : Thread nD τ).loc main_arg6)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.KernelIdeal.LayerValue

end
-- ==== Proof.ReferenceValue.lean ====
/-
  The reference program's result is the layer specification.

  Its last stage is relu (concat (node, mean') · W + b) with mean' (r,j) = (sums (r,j) / max (cnt r) 1) · nw r. Read at an
  index (r, q): the contraction over the 192 joined columns splits into the first 128, where the joined array is the
  node features, and the last 64, where it is mean'; and mean' is the specification's mean because a factor may be taken
  out of a numerator whose divisor is not zero. The two scatter-adds (sums and cnt) are not opened.
-/
import proofs.«171690_j8229157339893_2_alg».proof.Proof.Gen.ReferenceIdeal.Read
import proofs.«171690_j8229157339893_2_alg».proof.Proof.LayerSpec
import Idealize.ShloMosaic.Lib.Pipeline.Value

noncomputable section

namespace Cert.ReferenceIdeal.RefValue

open Cert.ReferenceIdeal Cert.ReferenceIdeal.Gen Cert.ReferenceIdeal.Read
open Idealize.ShloMosaic Idealize.ShloMosaic.ValueIdx Cert.LayerSpec
open scoped BigOperators

/-- The joined array in its first 128 columns is the node features. -/
theorem concat_lo (x2 : (⟨S100000x128, .f32⟩ : BufTy).Contents (Elt Ideal)) (y : (⟨S100000x64, .f32⟩ : BufTy).Contents (Elt Ideal))
    (p : Fin 100000) (q : Fin 256) (k : Fin 128) :
    concatenate S100000x192 1 [⟨S100000x128, x2⟩, ⟨S100000x64, y⟩] concatenates_S100000x128_S100000x64_S100000x192_d1
        (lidx_main_v21 (ix2 p q) (lo k)) = x2 (ix2 p k) :=
  concatenate_pair_apply_left 1 x2 y concatenates_S100000x128_S100000x64_S100000x192_d1 (lidx_main_v21 (ix2 p q) (lo k)) rfl
    (ix2 p k) (fun b => match b with | ⟨0, _⟩ => rfl | ⟨1, _⟩ => rfl)

/-- The joined array in its last 64 columns is the second piece, the column index 128 less. -/
theorem concat_hi (x2 : (⟨S100000x128, .f32⟩ : BufTy).Contents (Elt Ideal)) (y : (⟨S100000x64, .f32⟩ : BufTy).Contents (Elt Ideal))
    (p : Fin 100000) (q : Fin 256) (j : Fin 64) :
    concatenate S100000x192 1 [⟨S100000x128, x2⟩, ⟨S100000x64, y⟩] concatenates_S100000x128_S100000x64_S100000x192_d1
        (lidx_main_v21 (ix2 p q) (hi j)) = y (ix2 p j) :=
  concatenate_pair_apply_right 1 x2 y concatenates_S100000x128_S100000x64_S100000x192_d1 (lidx_main_v21 (ix2 p q) (hi j)) rfl rfl
    (ix2 p j) (fun b hb => match b, hb with | ⟨0, _⟩, _ => rfl | ⟨1, _⟩, hb => absurd rfl hb)
    (by show j.val + 128 = 128 + j.val; omega)

/-- The reference's weighted mean at (r, j) is the specification's: the node weight moves into the numerator. -/
theorem mean_eq (x0 : (⟨S2x1000000, .i32⟩ : BufTy).Contents (Elt Ideal)) (x1 : (⟨S1000000x64, .f32⟩ : BufTy).Contents (Elt Ideal))
    (x3 : (⟨S1000000, .f32⟩ : BufTy).Contents (Elt Ideal)) (x4 : (⟨S100000, .f32⟩ : BufTy).Contents (Elt Ideal))
    (r : Fin 100000) (j : Fin 64) :
    val_main_v19 (F := Ideal) x0 x1 x3 x4 (ix2 r j)
      = meanAt (val_main_v7 (F := Ideal) x0 x1 x3) (val_main_v11 (F := Ideal) x0) x4 r j := by
  have e1 : idx_main_v14 (idx_main_v15 (ix2 r j)) = ix1 r := funext fun a => match a with | ⟨0, _⟩ => rfl
  have e2 : idx_main_v17 (idx_main_v18 (ix2 r j)) = ix1 r := funext fun a => match a with | ⟨0, _⟩ => rfl
  rw [val_main_v19_apply, val_main_v16_apply, val_main_v15_apply, val_main_v14_apply, val_main_v13_apply, e1,
    val_main_v12_apply, val_main_cst_2_apply, val_main_v18_apply, val_main_v17_apply, e2]
  exact (div_mul_right_comm _ _ _ (max_one32_ne_zero _)).symm

/-- The reference's result array is the layer specification of the arguments and the two scatter-adds. -/
theorem result_eq (x0 : (⟨S2x1000000, .i32⟩ : BufTy).Contents (Elt Ideal)) (x1 : (⟨S1000000x64, .f32⟩ : BufTy).Contents (Elt Ideal))
    (x2 : (⟨S100000x128, .f32⟩ : BufTy).Contents (Elt Ideal)) (x3 : (⟨S1000000, .f32⟩ : BufTy).Contents (Elt Ideal))
    (x4 : (⟨S100000, .f32⟩ : BufTy).Contents (Elt Ideal)) (x5 : (⟨S192x256, .f32⟩ : BufTy).Contents (Elt Ideal))
    (x6 : (⟨S256, .f32⟩ : BufTy).Contents (Elt Ideal)) :
    val_main_v25 (F := Ideal) x0 x1 x2 x3 x4 x5 x6
      = layerOut x2 (val_main_v7 (F := Ideal) x0 x1 x3) (val_main_v11 (F := Ideal) x0) x4 x5 x6 := by
  funext i
  obtain ⟨p, q, rfl⟩ : ∃ (p : Fin 100000) (q : Fin 256), i = ix2 p q := ⟨i 0, i 1, eq_ix2 i⟩
  have hsum : (∑ k : Fin 192, val_main_v20 (F := Ideal) x0 x1 x2 x3 x4 (lidx_main_v21 (ix2 p q) k) * x5 (ridx_main_v21 (ix2 p q) k))
      = (∑ k : Fin 128, x2 (ix2 p k) * x5 (ix2 (lo k) q))
        + ∑ j : Fin 64, meanAt (val_main_v7 (F := Ideal) x0 x1 x3) (val_main_v11 (F := Ideal) x0) x4 p j * x5 (ix2 (hi j) q) := by
    rw [sum_split]
    refine congrArg₂ (· + ·) (Finset.sum_congr rfl fun k _ => ?_) (Finset.sum_congr rfl fun j _ => ?_)
    · have er : ridx_main_v21 (ix2 p q) (lo k) = ix2 (lo k) q := funext fun a => match a with | ⟨0, _⟩ => rfl | ⟨1, _⟩ => rfl
      exact congrArg₂ (· * ·) (concat_lo x2 _ p q k) (congrArg x5 er)
    · have er : ridx_main_v21 (ix2 p q) (hi j) = ix2 (hi j) q := funext fun a => match a with | ⟨0, _⟩ => rfl | ⟨1, _⟩ => rfl
      exact congrArg₂ (· * ·) ((concat_hi x2 _ p q j).trans (mean_eq x0 x1 x3 x4 p j)) (congrArg x5 er)
  have eb : idx_main_v22 (idx_main_v23 (ix2 p q)) = ix1 q := funext fun a => match a with | ⟨0, _⟩ => rfl
  rw [layerOut_apply, val_main_v25_apply, val_main_v24_apply, val_main_v21_apply, val_main_v23_apply, val_main_v22_apply,
    val_main_call0_v0_apply, val_main_call0_cst_apply, hsum, eb]
  rfl

end Cert.ReferenceIdeal.RefValue

end
-- ==== Proof.SharedScatter.lean ====
/-
  Both programs begin with the same two scatter-adds over the target row of the edge index: the per-node sums of the
  weighted edge rows and the per-node edge counts. Each program states them over its own copy of the shapes and
  dimension numbers; the copies hold the same data, so the functions are the same.
-/
import proofs.«171690_j8229157339893_2_alg».proof.Proof.EntryArrays
import proofs.«171690_j8229157339893_2_alg».proof.Proof.Gen.ReferenceIdeal.Read

noncomputable section

namespace Cert.Shared

open Idealize.ShloMosaic

/-- The reference's sums are the kernel's. -/
theorem sums_same (x0 : (⟨Cert.KernelIdeal.S2x1000000, .i32⟩ : BufTy).Contents (Elt Ideal))
    (x1 : (⟨Cert.KernelIdeal.S1000000x64, .f32⟩ : BufTy).Contents (Elt Ideal))
    (x3 : (⟨Cert.KernelIdeal.S1000000, .f32⟩ : BufTy).Contents (Elt Ideal)) :
    Cert.ReferenceIdeal.Read.val_main_v7 (F := Ideal) x0 x1 x3 = Cert.KernelIdeal.Entry.sumsOf x0 x1 x3 := rfl

/-- The reference's counts are the kernel's. -/
theorem cnt_same (x0 : (⟨Cert.KernelIdeal.S2x1000000, .i32⟩ : BufTy).Contents (Elt Ideal)) :
    Cert.ReferenceIdeal.Read.val_main_v11 (F := Ideal) x0 = Cert.KernelIdeal.Entry.cntOf x0 := rfl

end Cert.Shared

end
-- ==== Proof.lean ====
/-
  A graph layer: for each node, the weighted mean of its incoming edge rows, joined to the node's own features, through
  a linear map and a relu.

  Both programs first form, by the same scatter-adds, sums (r, ·) = Σ over edges e with target r of edge_attr (e, ·) ·
  edge_weight e, and cnt r = the number of such edges. The reference then computes
      relu ( concat (node, (sums / max cnt 1) · nw) · W + b ),
  and the kernel, over 20 blocks of 5000 rows,
      relu ( node · W[0:128] + ((sums · nw) / max cnt 1) · W[128:192] + b ).
  On the extended reals these are one function of the arguments: the divisor max cnt 1 is at least one, so dividing is
  multiplying by its inverse and the node weight may stand on either side of the division; and the contraction over the
  192 joined columns is the contraction over the first 128 plus the one over the last 64. Neither step needs any input
  to be finite, so the precondition is not opened. The kernel's idealization rewrote nothing.
-/
import proofs.«171690_j8229157339893_2_alg».proof.Defs
import proofs.«171690_j8229157339893_2_alg».proof.Proof.Gen.Kernel
import proofs.«171690_j8229157339893_2_alg».proof.Proof.Gen.Kernel.Skeleton
import proofs.«171690_j8229157339893_2_alg».proof.Proof.Gen.Kernel.Launch
import proofs.«171690_j8229157339893_2_alg».proof.Proof.Gen.Kernel.Points
import proofs.«171690_j8229157339893_2_alg».proof.Proof.Gen.Kernel.Frame
import proofs.«171690_j8229157339893_2_alg».proof.Proof.Gen.KernelIdeal
import proofs.«171690_j8229157339893_2_alg».proof.Proof.Gen.KernelIdeal.Skeleton
import proofs.«171690_j8229157339893_2_alg».proof.Proof.Gen.KernelIdeal.Launch
import proofs.«171690_j8229157339893_2_alg».proof.Proof.Gen.KernelIdeal.Points
import proofs.«171690_j8229157339893_2_alg».proof.Proof.Gen.KernelIdeal.Frame
import proofs.«171690_j8229157339893_2_alg».proof.Proof.Gen.ReferenceIdeal
import proofs.«171690_j8229157339893_2_alg».proof.Proof.Gen.Pre_finite_inputs
import proofs.«171690_j8229157339893_2_alg».proof.Proof.Gen.KernelIdeal.Value
import proofs.«171690_j8229157339893_2_alg».proof.Proof.Gen.ReferenceIdeal.Run
import proofs.«171690_j8229157339893_2_alg».proof.Proof.Gen.ReferenceIdeal.Read
import proofs.«171690_j8229157339893_2_alg».proof.Proof.LayerValue
import proofs.«171690_j8229157339893_2_alg».proof.Proof.ReferenceValue
import proofs.«171690_j8229157339893_2_alg».proof.Proof.SharedScatter
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From memories that agree on the arguments, both programs end with the layer specification of those arguments. -/
theorem algebraic : Cert.algebraic_KernelIdeal_ReferenceIdeal := by
  intro m ρ m' ρ' _ hagree
  refine ⟨_, Cert.KernelIdeal.LayerValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v25_eq, Cert.ReferenceIdeal.RefValue.result_eq, Cert.Shared.sums_same,
    Cert.Shared.cnt_same, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
